-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  reducesTo_S_S_d : S_.ReducesTo [] S_
  bcast_S_S256x8192 : S_.BroadcastsInDim S256x8192 (![] : Fin 0 → Fin S256x8192.rank)
  reducesTo_S256x8192_S_d0_1 : S256x8192.ReducesTo [0, 1] S_

variable [Facts]

def fn_part1 {F : FTy → Type} [FloatOps F] (main_arg4 : FVec F S8192x8192 .f32) (main_arg5 : FVec F S256x8192 .f32) (main_arg6 : FVec F S256x8192 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S8192x8192 .f32 := Host.absf main_arg4
  let main_cst_6 : FVec F S_ .f32 := constant S_ .f32 0x7F800000#32
  let main_v19 : FVec F S8192x8192 .f32 := broadcastInDim S8192x8192 ![] bcast_S_S8192x8192 main_cst_6
  let main_v20 : IVec S8192x8192 1 := cmpf .olt main_v18 main_v19
  let main_c_7 : IVec S_ 1 := constantI S_ 1 1#1
  let main_v21 : IVec S_ 1 := (fun x v => Host.reduce IntOp.andi x v reducesTo_S8192x8192_S_d0_1 h_S_) main_v20 main_c_7
  let main_v22 : IVec S_ 1 := andi main_v17 main_v21
  let main_v23 : FVec F S256x8192 .f32 := Host.absf main_arg5
  let main_cst_8 : FVec F S_ .f32 := constant S_ .f32 0x7F800000#32
  let main_v24 : FVec F S256x8192 .f32 := broadcastInDim S256x8192 ![] bcast_S_S256x8192 main_cst_8
  let main_v25 : IVec S256x8192 1 := cmpf .olt main_v23 main_v24
  let main_c_9 : IVec S_ 1 := constantI S_ 1 1#1
  let main_v26 : IVec S_ 1 := (fun x v => Host.reduce IntOp.andi x v reducesTo_S256x8192_S_d0_1 h_S_) main_v25 main_c_9
  let main_v27 : IVec S_ 1 := andi main_v22 main_v26
  let main_v28 : FVec F S256x8192 .f32 := Host.absf main_arg6
  let main_cst_10 : FVec F S_ .f32 := constant S_ .f32 0x7F800000#32
  let main_v29 : FVec F S256x8192 .f32 := broadcastInDim S256x8192 ![] bcast_S_S256x8192 main_cst_10
  let main_v30 : IVec S256x8192 1 := cmpf .olt main_v28 main_v29
  let main_c_11 : IVec S_ 1 := constantI S_ 1 1#1
  let main_v31 : IVec S_ 1 := (fun x v => Host.reduce IntOp.andi x v reducesTo_S256x8192_S_d0_1 h_S_) main_v30 main_c_11
  let main_v32 : IVec S_ 1 := andi main_v27 main_v31
  main_v32

def fn {F : FTy → Type} [FloatOps F] (main_arg0 : FVec F S8192x8192 .f32) (main_arg1 : FVec F S8192x256 .f32) (main_arg2 : FVec F S8192x256 .f32) (main_arg3 : FVec F S_ .f32) (main_arg4 : FVec F S8192x8192 .f32) (main_arg5 : FVec F S256x8192 .f32) (main_arg6 : FVec F S256x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_v13 main_v15 main_c_5
-- ==== Kernel.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩
abbrev S8192x1 : Shape := ⟨2, ![8192, 1]⟩
abbrev S256x1024 : Shape := ⟨2, ![256, 1024]⟩
abbrev S1024x256 : Shape := ⟨2, ![1024, 256]⟩
abbrev S2048x256 : Shape := ⟨2, ![2048, 256]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 37
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x8192, .f32⟩
  | .hbm, ⟨5, _⟩ => ⟨S256x8192, .f32⟩
  | .hbm, ⟨6, _⟩ => ⟨S256x8192, .f32⟩
  | .hbm, ⟨7, _⟩ => ⟨S8192x256, .bf16⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S2048x256, .bf16⟩
  | .local _ .vmem, ⟨5, _⟩ => ⟨S2048x256, .bf16⟩
  | .local _ .vmem, ⟨6, _⟩ => ⟨S1024x2048, .f32⟩
  | .local _ .vmem, ⟨7, _⟩ => ⟨S1024x2048, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_cst_7 : Ref sig .tc := ⟨.hbm, 28, rfl⟩
abbrev main_v13 : Ref sig .tc := ⟨.hbm, 29, rfl⟩
abbrev main_cst_8 : Ref sig .tc := ⟨.hbm, 30, rfl⟩
abbrev main_v14 : Ref sig .tc := ⟨.hbm, 31, rfl⟩
abbrev main_cst_9 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  transposes_S256x1024_p1_0_S1024x256 : S256x1024.Transposes [1, 0] S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  reducesTo_S8192x256_S_d0_1 : S8192x256.ReducesTo [0, 1] S_
  reducesTo_S256x8192_S_d0_1 : S256x8192.ReducesTo [0, 1] S_
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x8192.size a
  hwx0_0 : ∀ i : grid0.Coords, EltTy.bits .f32 = 32 ∨ (Rect.block (s := S256x8192) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg5) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x8192, .f32⟩
  | .hbm, ⟨5, _⟩ => ⟨S256x8192, .f32⟩
  | .hbm, ⟨6, _⟩ => ⟨S256x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S8192x8192, .f32⟩
  | .hbm, ⟨26, _⟩ => ⟨S8192x256, .f32⟩
  | .hbm, ⟨27, _⟩ => ⟨S8192x256, .f32⟩
  | .hbm, ⟨28, _⟩ => ⟨S256x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S256x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S256x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_cst_15 : Ref sig .tc := ⟨.hbm, 62, rfl⟩
abbrev main_v39 : Ref sig .tc := ⟨.hbm, 63, rfl⟩
abbrev main_cst_16 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S256x8192_S8192x256_1_0 : S256x8192.Transposes [1, 0] S8192x256
  transposes_S8192x256_S256x8192_1_0 : S8192x256.Transposes [1, 0] S256x8192
  reducesTo_S8192x8192_S_d0_1 : S8192x8192.ReducesTo [0, 1] S_
  h_S_ : 0 < S_.numel
  reducesTo_S8192x256_S_d0_1 : S8192x256.ReducesTo [0, 1] S_
  reducesTo_S256x8192_S_d0_1 : S256x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Pieces.lean ====
/-
  What the kernel body leaves behind at a grid point, as values.

  The body keeps a 1024 × 1 accumulator column in a scratch buffer that lives across grid points. At the
  first item tile of a user tile it stores the zero column, reads it back and stores "zero column plus this
  tile's row sums"; at the later item tiles it stores "what the accumulator held plus this tile's row sums";
  at the last item tile it also copies the accumulator, read back, into the output block. In every case the
  buffers are stored whole, so what a case leaves is its last store's payload, with each load replaced by the
  contents of the whole buffer it reads.
-/
import proofs.«129548_j68676527063484_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-- First item tile of a user tile: the accumulator ends at the accumulating payload over the zero column. -/
theorem sout_A (c : Dev nD) (i : grid0.Coords) (a2 : Memref sig .tc .vmem S256x1024 .f32) (h2 : a2.IsWhole) (a3 : Memref sig .tc .vmem S1024x256 .f32) (h3 : a3.IsWhole) (a4 : Memref sig .tc .vmem S2048x256 .bf16) (h4 : a4.IsWhole) (a5 : Memref sig .tc .vmem S1024x2048 .f32) (h5 : a5.IsWhole) (a6 : Memref sig .tc .vmem S1024x1 .f32) (h6 : a6.IsWhole) (a7 : Memref sig .tc .vmem S1024x1 .f32) (h7 : a7.IsWhole) (hc0 : cond0_0 i) (hc1 : ¬cond0_1 i)
    (x0 : Vec F S256x1024 .f32) (x1 : Vec F S1024x256 .f32) (x2 : Vec F S2048x256 .bf16) (x3 : Vec F S1024x2048 .f32) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h7.read_unread, View.ld_unit_zero (S := S256x1024) hz, View.ld_unit_zero (S := S1024x256) hz, View.ld_unit_zero (S := S2048x256) hz, View.ld_unit_zero (S := S1024x2048) hz, View.ld_unit_zero (S := S1024x1) hz]

/-- A middle item tile: the accumulator ends at the accumulating payload over what it held. -/
theorem sout_B (c : Dev nD) (i : grid0.Coords) (a2 : Memref sig .tc .vmem S256x1024 .f32) (h2 : a2.IsWhole) (a3 : Memref sig .tc .vmem S1024x256 .f32) (h3 : a3.IsWhole) (a4 : Memref sig .tc .vmem S2048x256 .bf16) (h4 : a4.IsWhole) (a5 : Memref sig .tc .vmem S1024x2048 .f32) (h5 : a5.IsWhole) (a6 : Memref sig .tc .vmem S1024x1 .f32) (h6 : a6.IsWhole) (a7 : Memref sig .tc .vmem S1024x1 .f32) (h7 : a7.IsWhole) (hc0 : ¬cond0_0 i) (hc1 : ¬cond0_1 i)
    (x0 : Vec F S256x1024 .f32) (x1 : Vec F S1024x256 .f32) (x2 : Vec F S2048x256 .bf16) (x3 : Vec F S1024x2048 .f32) (xs0 : Vec F S1024x1 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h7.read_unread, View.ld_unit_zero (S := S256x1024) hz, View.ld_unit_zero (S := S1024x256) hz, View.ld_unit_zero (S := S2048x256) hz, View.ld_unit_zero (S := S1024x2048) hz, View.ld_unit_zero (S := S1024x1) hz]

/-- The last item tile: the accumulator ends at the accumulating payload over what it held, -/
theorem sout_C (c : Dev nD) (i : grid0.Coords) (a2 : Memref sig .tc .vmem S256x1024 .f32) (h2 : a2.IsWhole) (a3 : Memref sig .tc .vmem S1024x256 .f32) (h3 : a3.IsWhole) (a4 : Memref sig .tc .vmem S2048x256 .bf16) (h4 : a4.IsWhole) (a5 : Memref sig .tc .vmem S1024x2048 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 : Vec F S256x1024 .f32) (x1 : Vec F S1024x256 .f32) (x2 : Vec F S2048x256 .bf16) (x3 : Vec F S1024x2048 .f32) (xs0 : Vec F S1024x1 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread, View.ld_unit_zero (S := S256x1024) hz, View.ld_unit_zero (S := S1024x256) hz, View.ld_unit_zero (S := S2048x256) hz, View.ld_unit_zero (S := S1024x2048) hz, View.ld_unit_zero (S := S1024x1) hz]

/-- and the output block is that accumulator, read back whole. -/
theorem out_C (c : Dev nD) (i : grid0.Coords) (a2 : Memref sig .tc .vmem S256x1024 .f32) (h2 : a2.IsWhole) (a3 : Memref sig .tc .vmem S1024x256 .f32) (h3 : a3.IsWhole) (a4 : Memref sig .tc .vmem S2048x256 .bf16) (h4 : a4.IsWhole) (a5 : Memref sig .tc .vmem S1024x2048 .f32) (h5 : a5.IsWhole) (a6 : Memref sig .tc .vmem S1024x1 .f32) (h6 : a6.IsWhole) (a7 : Memref sig .tc .vmem S1024x1 .f32) (h7 : a7.IsWhole) (hc0 : ¬cond0_0 i) (hc1 : cond0_1 i)
    (x0 : Vec F S256x1024 .f32) (x1 : Vec F S1024x256 .f32) (x2 : Vec F S2048x256 .bf16) (x3 : Vec F S1024x2048 .f32) (xs0 : Vec F S1024x1 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S1024x1) _ hz]
  simp only [View.readAt_eq_ld, h2.read_unread, h3.read_unread, h4.read_unread, h5.read_unread, h7.read_unread, View.ld_unit_zero (S := S256x1024) hz, View.ld_unit_zero (S := S1024x256) hz, View.ld_unit_zero (S := S2048x256) hz, View.ld_unit_zero (S := S1024x2048) hz, View.ld_unit_zero (S := S1024x1) hz]

end Cert.KernelIdeal.Value

end
-- ==== Proof.Chain.lean ====
/-
  The accumulator, grid position by grid position.

  The 32 grid positions run through the eight user tiles in order, four item tiles each: position `n` is item
  tile `n % 4` of user tile `n / 4`. After position `n` the accumulator holds the accumulating payload of
  that position's four input blocks over the zero column when `n % 4 = 0` (a new user tile starts), and over
  what the position before left otherwise. At the positions with `n % 4 = 3` the output block holds the same
  column. So at the last item tile of a user tile the output block is four nested accumulating payloads over
  the zero column, one per item tile.
-/
import proofs.«129548_j68676527063484_2_alg».proof.Proof.Pieces

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ)

/-- The accumulating payload of grid position `t`'s four input blocks over an accumulator column `xs`. -/
def pay (c : Dev nD) (t : Fin cfg0.N) (xs : Vec F S1024x1 .f32) : Vec F S1024x1 .f32 :=
  k0_pay2 (iblk m c 0 t) (iblk m c 1 t) (iblk m c 2 t) (iblk m c 3 t) xs

/-- The accumulator after grid position `n`. -/
def acc (c : Dev nD) : (n : ℕ) → n < cfg0.N → Vec F S1024x1 .f32
  | 0, h => pay m c ⟨0, h⟩ (k0_pay1 (F := F))
  | n + 1, h =>
    if (n + 1) % 4 = 0 then pay m c ⟨n + 1, h⟩ (k0_pay1 (F := F))
    else pay m c ⟨n + 1, h⟩ (acc c n (Nat.lt_of_succ_lt h))

/-- A new user tile starts from the zero column. -/
theorem acc_reset (c : Dev nD) : ∀ (n : ℕ) (h : n < cfg0.N), n % 4 = 0 → acc m c n h = pay m c ⟨n, h⟩ (k0_pay1 (F := F))
  | 0, _, _ => rfl
  | n + 1, h, h0 => by rw [acc, if_pos h0]

/-- Within a user tile the accumulator carries on from the position before. -/
theorem acc_step (c : Dev nD) (n : ℕ) (h : n + 1 < cfg0.N) (h0 : ¬(n + 1) % 4 = 0) :
    acc m c (n + 1) h = pay m c ⟨n + 1, h⟩ (acc m c n (Nat.lt_of_succ_lt h)) := by
  rw [acc, if_neg h0]

/-- The generated contents do not depend on how the position is written. -/
theorem outsAt_congr (c : Dev nD) {k n : ℕ} (e : k = n) (hk : k < cfg0.N) (hn : n < cfg0.N) :
    outsAt0 m c k hk = outsAt0 m c n hn := by
  subst e; rfl

/-- What the generated run finds in the accumulator at a position that starts a user tile, -/
theorem scratch_A (c : Dev nD) (t : Fin cfg0.N) (h0 : t.val % 4 = 0) (h1 : ¬t.val % 4 = 3) :
    (outsAt0 m c t.val t.isLt).2 = pay m c t (k0_pay1 (F := F)) := by
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- at a middle position, -/
theorem scratch_B (c : Dev nD) (t : Fin cfg0.N) (h0 : ¬t.val % 4 = 0) (h1 : ¬t.val % 4 = 3) :
    (outsAt0 m c t.val t.isLt).2 = pay m c t (outsAt0 m c (t.val - 1) (Nat.lt_of_le_of_lt (Nat.sub_le _ _) t.isLt)).2 := by
  rw [outsAt0_B m c t h0 h1]
  dsimp only
  exact sout_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- at a position that ends a user tile, -/
theorem scratch_C (c : Dev nD) (t : Fin cfg0.N) (h0 : ¬t.val % 4 = 0) (h1 : t.val % 4 = 3) :
    (outsAt0 m c t.val t.isLt).2 = pay m c t (outsAt0 m c (t.val - 1) (Nat.lt_of_le_of_lt (Nat.sub_le _ _) t.isLt)).2 := by
  rw [outsAt0_C m c t h0 h1]
  dsimp only
  exact sout_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and in the output block there. -/
theorem output_C (c : Dev nD) (t : Fin cfg0.N) (h0 : ¬t.val % 4 = 0) (h1 : t.val % 4 = 3) :
    (outsAt0 m c t.val t.isLt).1 = pay m c t (outsAt0 m c (t.val - 1) (Nat.lt_of_le_of_lt (Nat.sub_le _ _) t.isLt)).2 := by
  rw [outsAt0_C m c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- What the generated run finds in the accumulator after each position is the column `acc`: by induction on
    the position, the case of each position decided by its residue modulo four. -/
theorem outsAt_scratch (c : Dev nD) : ∀ (n : ℕ) (h : n < cfg0.N), (outsAt0 m c n h).2 = acc m c n h
  | 0, h => (scratch_A m c ⟨0, h⟩ (Nat.zero_mod 4) (fun e => absurd ((Nat.zero_mod 4).symm.trans e) (by decide))).trans
      (acc_reset m c 0 h (Nat.zero_mod 4)).symm
  | n + 1, h => by
    have hN : cfg0.N = 32 := N_0
    have hp : (outsAt0 m c ((⟨n + 1, h⟩ : Fin cfg0.N).val - 1) (Nat.lt_of_le_of_lt (Nat.sub_le _ _) h)).2 = acc m c n (Nat.lt_of_succ_lt h) :=
      (congrArg Prod.snd (outsAt_congr m c (Nat.add_sub_cancel n 1) _ (Nat.lt_of_succ_lt h))).trans (outsAt_scratch c n (Nat.lt_of_succ_lt h))
    by_cases h0 : (n + 1) % 4 = 0
    · have h1 : ¬(n + 1) % 4 = 3 := by omega
      rw [acc_reset m c (n + 1) h h0]
      exact scratch_A m c ⟨n + 1, h⟩ h0 h1
    · rw [acc_step m c n h h0, ← hp]
      by_cases h1 : (n + 1) % 4 = 3
      · exact scratch_C m c ⟨n + 1, h⟩ h0 h1
      · exact scratch_B m c ⟨n + 1, h⟩ h0 h1

/-- At the last item tile of a user tile the output block holds the accumulator. -/
theorem outsAt_out (c : Dev nD) (n : ℕ) (h : n + 1 < cfg0.N) (h1 : (n + 1) % 4 = 3) :
    (outsAt0 m c (n + 1) h).1 = acc m c (n + 1) h := by
  have h0 : ¬(n + 1) % 4 = 0 := by omega
  have hp : (outsAt0 m c ((⟨n + 1, h⟩ : Fin cfg0.N).val - 1) (Nat.lt_of_le_of_lt (Nat.sub_le _ _) h)).2 = acc m c n (Nat.lt_of_succ_lt h) :=
    (congrArg Prod.snd (outsAt_congr m c (Nat.add_sub_cancel n 1) _ (Nat.lt_of_succ_lt h))).trans (outsAt_scratch m c n (Nat.lt_of_succ_lt h))
  rw [acc_step m c n h h0, ← hp]
  exact output_C m c ⟨n + 1, h⟩ h0 h1

/-- So at position `4 a + 3` the output block is the four item tiles' accumulating payloads nested over the
    zero column. -/
theorem acc_last (c : Dev nD) (a : ℕ) (h : 4 * a + 3 < cfg0.N) :
    acc m c (4 * a + 3) h
      = pay m c ⟨4 * a + 3, h⟩ (pay m c ⟨4 * a + 2, by omega⟩ (pay m c ⟨4 * a + 1, by omega⟩
          (pay m c ⟨4 * a, by omega⟩ (k0_pay1 (F := F))))) := by
  rw [acc_step m c (4 * a + 2) h (by omega), acc_step m c (4 * a + 1) (by omega) (by omega),
    acc_step m c (4 * a) (by omega) (by omega), acc_reset m c (4 * a) (by omega) (by omega)]

end Cert.KernelIdeal.Value

end
-- ==== Proof.Spec.lean ====
/-
  The matrix-factorisation loss as one closed expression of the argument arrays, on the extended reals.

  For a user `u` and an item `i` the predicted rating is `∑ k, (P k u · U u k) · V i k`; the observed
  rating `R u i` contributes the squared difference from its prediction when it is present (non-zero) and
  nothing when it is absent. The data term of the loss is half the sum of these contributions over all
  `(u, i)`. A user's contributions are also summed item tile by item tile (four tiles of 2048 items), and the
  users are cut into eight tiles of 1024: `row` and `col` name a user / an item by its tile and its place
  inside the tile.
-/
import Idealize.ShloMosaic.PureOps.Ideal
import Idealize.ShloMosaic.Lib.ValueIdx

noncomputable section

open scoped BigOperators

namespace Cert.Loss

open Idealize.ShloMosaic Idealize.ShloMosaic.ValueIdx

/-- An array of extended reals with `a` rows and `b` columns. -/
abbrev Arr (a b : Nat) : Type := (⟨2, ![a, b]⟩ : Shape).Idx → EReal

/-- One rating's contribution: nothing where the rating `r` is absent (zero), else the squared difference
    from its prediction `p`. -/
def sqErr (r p : EReal) : EReal := if r ≠ 0 then (r - p) * (r - p) else 0

/-- The predicted rating of user `u` for item `i`: `∑ k, (P k u · U u k) · V i k`. -/
def pred (P : Arr 256 8192) (U V : Arr 8192 256) (u i : Fin 8192) : EReal :=
  ∑ k : Fin 256, P (ix2 k u) * U (ix2 u k) * V (ix2 i k)

/-- The contribution of the pair `(u, i)`. -/
def err (R : Arr 8192 8192) (P : Arr 256 8192) (U V : Arr 8192 256) (u i : Fin 8192) : EReal :=
  sqErr (R (ix2 u i)) (pred P U V u i)

/-- User `r` of user tile `a` (tiles of 1024). -/
def row (a : Fin 8) (r : Fin 1024) : Fin 8192 := ⟨1024 * a.val + r.val, by omega⟩

/-- Item `l` of item tile `b` (tiles of 2048). -/
def col (b : Fin 4) (l : Fin 2048) : Fin 8192 := ⟨2048 * b.val + l.val, by omega⟩

theorem row_val (a : Fin 8) (r : Fin 1024) : (row a r).val = 1024 * a.val + r.val := rfl
theorem col_val (b : Fin 4) (l : Fin 2048) : (col b l).val = 2048 * b.val + l.val := rfl

/-- The same contributions on one tile's blocks: for the user at place `q` of a 1024-user tile, the sum over
    the 2048 items of an item tile, from the tile's blocks `p` of `P` (256 × 1024), `u` of `U` (1024 × 256),
    `v` of `V` (2048 × 256) and `r` of `R` (1024 × 2048). -/
def tileSum (p : Arr 256 1024) (u : Arr 1024 256) (v : Arr 2048 256) (r : Arr 1024 2048) (q : Fin 1024) : EReal :=
  ∑ l : Fin 2048, sqErr (r (ix2 q l)) (∑ k : Fin 256, p (ix2 k q) * u (ix2 q k) * v (ix2 l k))

/-- Each user's summed contributions, item tile by item tile: the 8192 × 1 column of row sums. -/
def rowSums (R : Arr 8192 8192) (P : Arr 256 8192) (U V : Arr 8192 256) : Arr 8192 1 :=
  fun y => ∑ b : Fin 4, ∑ l : Fin 2048, err R P U V (y 0) (col b l)

end Cert.Loss

end
-- ==== Proof.Payload.lean ====
/-
  The accumulating payload of the kernel body, read at one user's place of a tile, on the extended reals.
-/
import proofs.«129548_j68676527063484_2_alg».proof.Proof.Spec
import proofs.«129548_j68676527063484_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- A vector of length `a` viewed as an `a × 1` column reads, at `(i, u)`, the vector at `i`: both have row-major
    position `i`, since the unit coordinate `u` is `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The masked squared difference at one rating: the comparison "`r` is not zero" decides between the square of
    `r - p` and zero, which is `sqErr r p`. -/
theorem select_sq (r p : EReal) :
    Scalar.select (Ideal.cmp .one r (Ideal.ofBits .f32 0x00000000#32)) ((r - p) * (r - p)) (Ideal.ofBits .f32 0x00000000#32)
      = Cert.Loss.sqErr r p := by
  rw [Ideal.ofBits_zero_f32]
  unfold Cert.Loss.sqErr
  by_cases h : r ≠ 0
  · have hc : Ideal.cmp .one r 0 = 1#1 := by simp [Ideal.cmp, h]
    rw [if_pos h, hc, select_one]
  · have hc : Ideal.cmp .one r 0 = 0#1 := by simp [Ideal.cmp, h]
    rw [if_neg h, hc, select_zero]

/-- The masked squared difference of a block of ratings `r` from a block of predictions `m`, at one place `i` where
    the prediction is `p`. -/
theorem masked_sq_apply (r m : FVec Ideal S1024x2048 .f32) (i : S1024x2048.Idx) (p : EReal) (hp : m i = p) :
    select (cmpf .one r (broadcast S1024x2048 (Scalar.ofBits .f32 0x00000000#32)))
        (mulf (subf r m) (subf r m)) (broadcast S1024x2048 (Scalar.ofBits .f32 0x00000000#32)) i
      = Cert.Loss.sqErr (r i) p := by
  subst hp
  exact select_sq (r i) (m i)

/-- The sum along the item axis of a `1024 × 2048` block, at user `q`: the sum over the 2048 items of the block
    at `(q, l)`. -/
theorem laneSum_apply (src : FVec Ideal S1024x2048 .f32) (q : Fin 1024) :
    multiReduction (F := Ideal) .add [1] S1024 src 0x00000000#32 reduces_S1024x2048_S1024 (.inl rfl) rfl (ix1 q)
      = ∑ l : Fin 2048, src (ix2 q l) := by
  refine (Ideal.multiReduction_add_single src 0x00000000#32 reduces_S1024x2048_S1024 (.inl rfl) rfl (ix1 q)).trans ?_
  refine Finset.sum_congr rfl fun l _ => congrArg src (funext fun a => Fin.ext ?_)
  match a with
  | ⟨0, _⟩ => rfl
  | ⟨1, _⟩ => rfl

/-- In the block product the left operand's row coordinate is the result's row coordinate, whatever the shared
    coordinate. -/
theorem dot_lhs_row (i : S1024x2048.Idx) (c : dot_S1024x256_S2048x256_S1024x2048_1_1_0_0_n_n.contr.Idx) :
    (dot_S1024x256_S2048x256_S1024x2048_1_1_0_0_n_n.lhsIdx i c 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

/-- … and the right operand's row coordinate is the result's column coordinate. -/
theorem dot_rhs_row (i : S1024x2048.Idx) (c : dot_S1024x256_S2048x256_S1024x2048_1_1_0_0_n_n.contr.Idx) :
    (dot_S1024x256_S2048x256_S1024x2048_1_1_0_0_n_n.rhsIdx i c 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- The product of a `1024 × 256` block `l` with the transpose of a `2048 × 256` block `r`, from zero: at
    `(q, j)` the sum over the 256 shared coordinates of `l (q, k) · r (j, k)`. -/
theorem matmul_apply (l : FVec Ideal S1024x256 .bf16) (r : FVec Ideal S2048x256 .bf16) (q : Fin 1024) (j : Fin 2048) :
    matmul dot_S1024x256_S2048x256_S1024x2048_1_1_0_0_n_n none l r (constant (F := Ideal) S1024x2048 .f32 0x00000000#32) (ix2 q j)
      = ∑ k : Fin 256, l (ix2 q k) * r (ix2 j k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 q j)
      ((contrEquiv1 dot_S1024x256_S2048x256_S1024x2048_1_1_0_0_n_n 256 rfl rfl).symm k) = ix2 q k :=
    funext fun a => Fin.ext (by
      match a with
      | ⟨0, _⟩ => exact dot_lhs_row _ _
      | ⟨1, _⟩ => exact (dot_S1024x256_S2048x256_S1024x2048_1_1_0_0_n_n.lhsIdx_val_of_single rfl (ix2 q j) _).trans hk)
  have er : dot_S1024x256_S2048x256_S1024x2048_1_1_0_0_n_n.rhsIdx (ix2 q j)
      ((contrEquiv1 dot_S1024x256_S2048x256_S1024x2048_1_1_0_0_n_n 256 rfl rfl).symm k) = ix2 j k :=
    funext fun a => Fin.ext (by
      match a with
      | ⟨0, _⟩ => exact dot_rhs_row _ _
      | ⟨1, _⟩ => exact (dot_S1024x256_S2048x256_S1024x2048_1_1_0_0_n_n.rhsIdx_val_of_single rfl (ix2 q j) _).trans hk)
  rw [el, er]

/-- The reset payload is the zero column. -/
theorem pay1_apply (y : S1024x1.Idx) : k0_pay1 (F := Ideal) y = 0 := by
  unfold k0_pay1
  refine (congrFun (shapeCast_self _ shapeCasts_S1024x1_S1024x1) y).trans ?_
  exact Ideal.ofBits_zero_f32

/-- The accumulating payload at the user at place `q`: what the accumulator held there plus that user's
    contributions over the item tile. -/
theorem pay2_apply (x0 : Vec Ideal S256x1024 .f32) (x1 : Vec Ideal S1024x256 .f32) (x2 : Vec Ideal S2048x256 .bf16)
    (x3 : Vec Ideal S1024x2048 .f32) (xs : Vec Ideal S1024x1 .f32) (q : Fin 1024) (z : Fin 1) :
    k0_pay2 (F := Ideal) x0 x1 x2 x3 xs (ix2 q z) = xs (ix2 q z) + Cert.Loss.tileSum x0 x1 x2 x3 q := by
  unfold k0_pay2
  dsimp only
  -- the outer cast of the column to itself, then the sum with the accumulator
  refine (congrFun (shapeCast_self _ shapeCasts_S1024x1_S1024x1) (ix2 q z)).trans ?_
  refine congrArg (xs (ix2 q z) + ·) ?_
  -- the column view of the lane sums, then the lane sum itself
  refine (shapeCast_a_a1_apply _ shapeCasts_S1024_S1024x1 q z).trans ?_
  refine (laneSum_apply _ q).trans ?_
  unfold Cert.Loss.tileSum
  refine Finset.sum_congr rfl fun l _ => ?_
  -- one rating: the masked square of its difference from the prediction
  refine masked_sq_apply x3 _ (ix2 q l) _ ?_
  -- the prediction: the block product, then its two operands at an index
  refine (matmul_apply _ _ q l).trans ?_
  refine Finset.sum_congr rfl fun k _ => ?_
  have e1 : transpose S1024x256 [1, 0] x0 transposes_S256x1024_p1_0_S1024x256 (ix2 q k) = x0 (ix2 k q) :=
    transpose_ix2_apply x0 transposes_S256x1024_p1_0_S1024x256 q k
  have e2 : shapeCast S2048x256 x2 shapeCasts_S2048x256_S2048x256 = x2 := shapeCast_self _ _
  show transpose S1024x256 [1, 0] x0 transposes_S256x1024_p1_0_S1024x256 (ix2 q k) * x1 (ix2 q k)
      * shapeCast S2048x256 x2 shapeCasts_S2048x256_S2048x256 (ix2 l k) = _
  rw [e1, e2]

end Cert.KernelIdeal.Tile

end
-- ==== Proof.Blocks.lean ====
/-
  The four input blocks of a grid point are the tile's parts of the argument arrays.

  The grid has 8 × 4 points; point `t = 4a + b` works on user tile `a` (users `1024a … 1024a + 1023`) and item
  tile `b` (items `2048b … 2048b + 2047`). A block's entry sits in its array at block index × block size + its
  place inside the block, axis by axis, and the four index maps send the point to
    `(0, a)` for `P` (256 × 1024 blocks), `(a, 0)` for `U` (1024 × 256), `(b, 0)` for `V` (2048 × 256),
    `(a, b)` for `R` (1024 × 2048).
  So place `q` of the user axis is user `row a q` and place `l` of the item axis is item `col b l`, and the factor
  axis (256 long, one block) is read as it stands. The array the third window reads is the conversion of `V` to
  the narrower float type, written before the region; on the extended reals that conversion changes nothing.
-/
import proofs.«129548_j68676527063484_2_alg».proof.Proof.Spec
import proofs.«129548_j68676527063484_2_alg».proof.Proof.Gen.KernelIdeal.Frame.Runs
import Idealize.ShloMosaic.Lib.ValueIdx
import Idealize.ShloMosaic.Lib.Pipeline.Value
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## Where each window's block sits at point `t`: the index maps, decided over the 32 points -/

/-- `P`'s block: the whole factor axis, user tile `t / 4`. -/
theorem idxP : ∀ t : Fin grid0.N, win0_0.index t 0 = 0 ∧ win0_0.index t 1 = t.val / 4 := by decide +kernel
/-- `U`'s block: user tile `t / 4`, the whole factor axis. -/
theorem idxU : ∀ t : Fin grid0.N, win0_1.index t 0 = t.val / 4 ∧ win0_1.index t 1 = 0 := by decide +kernel
/-- `V`'s block: item tile `t % 4`, the whole factor axis. -/
theorem idxV : ∀ t : Fin grid0.N, win0_2.index t 0 = t.val % 4 ∧ win0_2.index t 1 = 0 := by decide +kernel
/-- `R`'s block: user tile `t / 4`, item tile `t % 4`. -/
theorem idxR : ∀ t : Fin grid0.N, win0_3.index t 0 = t.val / 4 ∧ win0_3.index t 1 = t.val % 4 := by decide +kernel

/-! ## The blocks' entries -/

/-- `P`'s block at factor `k` and place `q` is `P k (row a q)`. -/
theorem blockP (c : Dev nD) (t : Fin cfg0.N) (a : Fin 8) (b : Fin 4) (ht : t.val = 4 * a.val + b.val) (k : Fin 256) (q : Fin 1024) :
    (iblk m c 0 t : Cert.Loss.Arr 256 1024) (ix2 k q)
      = m ((c.tc : Thread nD τ).loc main_arg5) (ix2 k (Cert.Loss.row a q)) := by
  unfold iblk
  rw [View.read_apply]
  show V m c main_arg5 _ = _
  rw [V_main_arg5]
  congr 1
  funext x
  apply Fin.ext
  match x with
  | ⟨0, _⟩ => show win0_0.index t 0 * 256 + 1 * k.val = k.val; rw [(idxP t).1]; omega
  | ⟨1, _⟩ => show win0_0.index t 1 * 1024 + 1 * q.val = 1024 * a.val + q.val; rw [(idxP t).2]; omega

/-- `U`'s block at place `q` and factor `k` is `U (row a q) k`. -/
theorem blockU (c : Dev nD) (t : Fin cfg0.N) (a : Fin 8) (b : Fin 4) (ht : t.val = 4 * a.val + b.val) (k : Fin 256) (q : Fin 1024) :
    (iblk m c 1 t : Cert.Loss.Arr 1024 256) (ix2 q k)
      = m ((c.tc : Thread nD τ).loc main_arg1) (ix2 (Cert.Loss.row a q) k) := by
  unfold iblk
  rw [View.read_apply]
  show V m c main_arg1 _ = _
  rw [V_main_arg1]
  congr 1
  funext x
  apply Fin.ext
  match x with
  | ⟨0, _⟩ => show win0_1.index t 0 * 1024 + 1 * q.val = 1024 * a.val + q.val; rw [(idxU t).1]; omega
  | ⟨1, _⟩ => show win0_1.index t 1 * 256 + 1 * k.val = k.val; rw [(idxU t).2]; omega

/-- The array the third window reads is `V` itself: it was written before the region as `V` converted to the
    narrower float type, and on the extended reals the conversion is the identity. -/
theorem converted_eq (c : Dev nD) :
    (V m c main_v0 : S8192x256.Idx → EReal) = (m ((c.tc : Thread nD τ).loc main_arg2) : S8192x256.Idx → EReal) := by
  show StableHlo.after hostOps0 (fun b => m (c, b)) (Proc.devRef .tc main_v0) = _
  after_results
  rfl

/-- `V`'s block at place `l` and factor `k` is `V (col b l) k`. -/
theorem blockV (c : Dev nD) (t : Fin cfg0.N) (a : Fin 8) (b : Fin 4) (ht : t.val = 4 * a.val + b.val) (k : Fin 256) (l : Fin 2048) :
    (iblk m c 2 t : Cert.Loss.Arr 2048 256) (ix2 l k)
      = m ((c.tc : Thread nD τ).loc main_arg2) (ix2 (Cert.Loss.col b l) k) := by
  unfold iblk
  rw [View.read_apply]
  show (V m c main_v0 : S8192x256.Idx → EReal) _ = _
  rw [converted_eq]
  congr 1
  funext x
  apply Fin.ext
  match x with
  | ⟨0, _⟩ => show win0_2.index t 0 * 2048 + 1 * l.val = 2048 * b.val + l.val; rw [(idxV t).1]; omega
  | ⟨1, _⟩ => show win0_2.index t 1 * 256 + 1 * k.val = k.val; rw [(idxV t).2]; omega

/-- `R`'s block at places `q`, `l` is `R (row a q) (col b l)`. -/
theorem blockR (c : Dev nD) (t : Fin cfg0.N) (a : Fin 8) (b : Fin 4) (ht : t.val = 4 * a.val + b.val) (q : Fin 1024) (l : Fin 2048) :
    (iblk m c 3 t : Cert.Loss.Arr 1024 2048) (ix2 q l)
      = m ((c.tc : Thread nD τ).loc main_arg0) (ix2 (Cert.Loss.row a q) (Cert.Loss.col b l)) := by
  unfold iblk
  rw [View.read_apply]
  show V m c main_arg0 _ = _
  rw [V_main_arg0]
  congr 1
  funext x
  apply Fin.ext
  match x with
  | ⟨0, _⟩ => show win0_3.index t 0 * 1024 + 1 * q.val = 1024 * a.val + q.val; rw [(idxR t).1]; omega
  | ⟨1, _⟩ => show win0_3.index t 1 * 2048 + 1 * l.val = 2048 * b.val + l.val; rw [(idxR t).2]; omega

/-! ## The tile sum -/

/-- At the grid point of user tile `a` and item tile `b` the blocks' tile sum at place `q` is the sum of user
    `row a q`'s contributions over the items `col b l`. -/
theorem tile_eq (c : Dev nD) (t : Fin cfg0.N) (a : Fin 8) (b : Fin 4) (ht : t.val = 4 * a.val + b.val) (q : Fin 1024) :
    Cert.Loss.tileSum (iblk m c 0 t) (iblk m c 1 t) (iblk m c 2 t) (iblk m c 3 t) q
      = ∑ l : Fin 2048, Cert.Loss.err (m ((c.tc : Thread nD τ).loc main_arg0)) (m ((c.tc : Thread nD τ).loc main_arg5))
          (m ((c.tc : Thread nD τ).loc main_arg1)) (m ((c.tc : Thread nD τ).loc main_arg2)) (Cert.Loss.row a q) (Cert.Loss.col b l) := by
  unfold Cert.Loss.tileSum Cert.Loss.err Cert.Loss.pred
  refine Finset.sum_congr rfl fun l _ => ?_
  rw [blockR m c t a b ht q l]
  congr 1
  refine Finset.sum_congr rfl fun k _ => ?_
  rw [blockP m c t a b ht k q, blockU m c t a b ht k q, blockV m c t a b ht k l]

end Cert.KernelIdeal.Blocks

end
-- ==== Proof.OutValue.lean ====
/-
  The output block at the end of a user tile holds that tile's users' row sums.

  At grid position `4 a + b` the accumulating payload adds, at place `q`, user `row a q`'s contributions over
  item tile `b` to what the accumulator held. Four of them nested over the zero column, one per item tile, give
  the user's contributions over all four item tiles: the entry of the column of row sums.
-/
import proofs.«129548_j68676527063484_2_alg».proof.Proof.Chain
import proofs.«129548_j68676527063484_2_alg».proof.Proof.Payload
import proofs.«129548_j68676527063484_2_alg».proof.Proof.Blocks

noncomputable section

open scoped BigOperators

open Idealize.ShloMosaic Idealize.ShloMosaic.TcCoe Idealize.ShloMosaic.ValueIdx Idealize.SL.Sem

namespace Cert.KernelIdeal.Value

open Cert.KernelIdeal Cert.KernelIdeal.Gen

variable (m : (ℓ : Loc nD τ sig) → Buf (Elt Ideal) ℓ)

/-- The accumulating payload at the grid position of user tile `a` and item tile `b`, at place `q`: what the
    accumulator held there plus user `row a q`'s contributions over the items `col b l`. -/
theorem pay_apply (c : Dev nD) (t : Fin cfg0.N) (a : Fin 8) (b : Fin 4) (ht : t.val = 4 * a.val + b.val)
    (xs : Vec Ideal S1024x1 .f32) (q : Fin 1024) (z : Fin 1) :
    pay m c t xs (ix2 q z)
      = xs (ix2 q z) + ∑ l : Fin 2048, Cert.Loss.err (m ((c.tc : Thread nD τ).loc main_arg0)) (m ((c.tc : Thread nD τ).loc main_arg5)) (m ((c.tc : Thread nD τ).loc main_arg1)) (m ((c.tc : Thread nD τ).loc main_arg2)) (Cert.Loss.row a q) (Cert.Loss.col b l) := by
  unfold pay
  exact (Cert.KernelIdeal.Tile.pay2_apply (iblk m c 0 t) (iblk m c 1 t) (iblk m c 2 t) (iblk m c 3 t) xs q z).trans
    (congrArg (xs (ix2 q z) + ·) (Cert.KernelIdeal.Blocks.tile_eq m c t a b ht q))

/-- At the end of user tile `a` (grid position `4 a + 3`) the output block holds, at place `q`, user
    `row a q`'s entry of the column of row sums. -/
theorem out_value (c : Dev nD) (t : Fin cfg0.N) (a : Fin 8) (ht : t.val = 4 * a.val + 3) (q : Fin 1024) (z : Fin 1) :
    (outsAt0 m c t.val t.isLt).1 (ix2 q z)
      = Cert.Loss.rowSums (m ((c.tc : Thread nD τ).loc main_arg0)) (m ((c.tc : Thread nD τ).loc main_arg5)) (m ((c.tc : Thread nD τ).loc main_arg1)) (m ((c.tc : Thread nD τ).loc main_arg2)) (ix2 (Cert.Loss.row a q) z) := by
  obtain ⟨n, hn⟩ := t
  dsimp only at ht
  subst ht
  have hN : cfg0.N = 32 := N_0
  have ha : a.val < 8 := a.isLt
  rw [show (outsAt0 m c (4 * a.val + 3) hn).1 = acc m c (4 * a.val + 3) hn from
    outsAt_out m c (4 * a.val + 2) hn (by omega)]
  rw [acc_last m c a.val hn]
  rw [pay_apply m c ⟨4 * a.val + 3, hn⟩ a 3 rfl _ q z, pay_apply m c ⟨4 * a.val + 2, by omega⟩ a 2 rfl _ q z,
    pay_apply m c ⟨4 * a.val + 1, by omega⟩ a 1 rfl _ q z, pay_apply m c ⟨4 * a.val, by omega⟩ a 0 rfl _ q z,
    Cert.KernelIdeal.Tile.pay1_apply, zero_add]
  unfold Cert.Loss.rowSums
  rw [Fin.sum_univ_four]

end Cert.KernelIdeal.Value

end
-- ==== Proof.Final.lean ====
/-
  The column of row sums after the run: each user tile's block is written back once, after the tile's last
  item tile, and the eight blocks tile the column.
-/
import proofs.«129548_j68676527063484_2_alg».proof.Proof.Spec
import proofs.«129548_j68676527063484_2_alg».proof.Proof.Gen.KernelIdeal.Frame
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ)

/-! ## Where the output block sits at point `t`

  The column has one block of 1024 rows per user tile: at point `t` the block is user tile `t / 4` (rows
  `1024 (t / 4) … 1024 (t / 4) + 1023`) of the single column, and it lies wholly inside the column. -/

/-- The output's index map and block extents, decided over the 32 points. -/
theorem idxOut : ∀ t : Fin grid0.N, win0_4.index t 0 = t.val / 4 ∧ win0_4.index t 1 = 0
    ∧ win0_4.xsize (grid0.coords t) 0 = 1024 ∧ win0_4.xsize (grid0.coords t) 1 = 1 := by decide +kernel

/-- What a writing point writes back is its block of `G`: a writing point is `t = 4 a + 3` with `a = t / 4`,
    place `q` of its block is row `1024 a + q = row a q` of the column, and there the block holds `G`'s entry. -/
theorem flushed_eq (c : Dev nD) (G : Vec F S8192x1 .f32)
    (hout : ∀ (t : Fin cfg0.N) (a : Fin 8), t.val = 4 * a.val + 3 → ∀ (q : Fin 1024) (z : Fin 1),
      (outsAt0 m c t.val t.isLt).1 (ix2 q z) = G (ix2 (Cert.Loss.row a q) z))
    (t : Fin cfg0.N) (hf : (cfg0.win 4).flush t = true) :
    (dats m 0 c).flushed 4 t = ((cfg0.win 4).blk t).view.read (Elt F) G := by
  have hN : cfg0.N = 32 := N_0
  have h3 : t.val % 4 = 3 := (flush0_4 t).mp hf
  have hlt : t.val < 32 := lt_of_lt_of_eq t.isLt hN
  have ht : t.val = 4 * (⟨t.val / 4, by omega⟩ : Fin 8).val + 3 := by show t.val = 4 * (t.val / 4) + 3; omega
  show (cfg0.win 4).cut (grid0.coords t) ((dats m 0 c).after 4 t) = _
  rw [after0_4]
  refine funext fun (y : S1024x1.Idx) => ?_
  obtain ⟨q, z, rfl⟩ : ∃ (q : Fin 1024) (z : Fin 1), y = ix2 q z := ⟨y 0, y 1, eq_ix2 y⟩
  rw [View.read_apply]
  show (outsAt0 m c t.val t.isLt).1 (ix2 q z) = _
  rw [hout t _ ht q z]
  congr 1
  funext x
  apply Fin.ext
  match x with
  | ⟨0, _⟩ => show 1024 * (t.val / 4) + q.val = win0_4.index t 0 * 1024 + 1 * q.val; rw [(idxOut t).1]; omega
  | ⟨1, _⟩ => show z.val = win0_4.index t 1 * 1 + 1 * z.val; rw [(idxOut t).2.1]; omega

/-- Every row of the column is in a written-back block: row `u` is in user tile `u / 1024`, whose block is
    written back at the tile's last point `4 (u / 1024) + 3`. -/
theorem covered (i : S8192x1.Idx) :
    ∃ t : Fin cfg0.N, (cfg0.win 4).flush t = true ∧ i ∈ ((cfg0.win 4).blk t).view.set := by
  have hN : cfg0.N = 32 := N_0
  have h0 : (i 0 : Nat) < 8192 := (i 0).isLt
  have h1 : (i 1 : Nat) < 1 := (i 1).isLt
  obtain ⟨t, ht⟩ : ∃ t : Fin cfg0.N, t.val = 4 * ((i 0 : Nat) / 1024) + 3 := ⟨⟨4 * ((i 0 : Nat) / 1024) + 3, by omega⟩, rfl⟩
  refine ⟨t, (flush0_4 t).mpr (by omega), ?_⟩
  show i ∈ ((View.whole main_v1).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [(idxOut t).1, (idxOut t).2.2.1]; omega
  | ⟨1, _⟩ =>
    show win0_4.index t 1 * 1 ≤ (i 1 : Nat) ∧ (i 1 : Nat) < win0_4.index t 1 * 1 + win0_4.xsize (grid0.coords t) 1
    rw [(idxOut t).2.1, (idxOut t).2.2.2]; omega

/-! ## The column after the run -/

/-- If at the end of every user tile `a` (grid position `4 a + 3`) the output block holds, at place `q`, the
    entry of `G` for user `row a q`, then the written-back column ends as `G`. -/
theorem arr_final (c : Dev nD) (G : Vec F S8192x1 .f32)
    (hout : ∀ (t : Fin cfg0.N) (a : Fin 8), t.val = 4 * a.val + 3 → ∀ (q : Fin 1024) (z : Fin 1),
      (outsAt0 m c t.val t.isLt).1 (ix2 q z) = G (ix2 (Cert.Loss.row a q) z)) :
    (dats m 0 c).arrAt 4 cfg0.N = G := by
  exact (dats m 0 c).arrAt_eq_of_cover 4 G (flushed_eq m c G hout) covered

end Cert.KernelIdeal.Value

end
-- ==== Proof.Tail.lean ====
/-
  The lines of the kernel's program after the region, as one function: the column of row sums is summed and
  halved, and the three regularisers — a tenth of the sum of squares of `U`, of `V` and of `P`, each halved —
  are added to it in that order.
-/
import proofs.«129548_j68676527063484_2_alg».proof.Proof.Gen.KernelIdeal

noncomputable section

namespace Cert.KernelIdeal.Value

open Cert.KernelIdeal Cert.KernelIdeal.Facts₀ Cert.KernelIdeal.Facts Idealize.ShloMosaic

variable {F : FTy → Type} [FloatOps F]

/-- Half of a tenth of a sum of squares `ss`. -/
def reg (ss : FVec F S_ .f32) : FVec F S_ .f32 :=
  Host.divf (mulf (constant S_ .f32 0x3DCCCCCD#32) ss) (constant S_ .f32 0x40000000#32)

/-- The loss from the column of row sums `s` and the arrays `U` (`x1`), `V` (`x2`), `P` (`x5`). -/
def tail (s : FVec F S8192x1 .f32) (x1 x2 : FVec F S8192x256 .f32) (x5 : FVec F S256x8192 .f32) : FVec F S_ .f32 :=
  addf (addf (addf
    (Host.divf (Host.reduceAdd s (constant S_ .f32 0x00000000#32) reducesTo_S8192x1_S_d0_1 h_S_) (constant S_ .f32 0x40000000#32))
    (reg (Host.reduceAdd (mulf x1 x1) (constant S_ .f32 0x00000000#32) reducesTo_S8192x256_S_d0_1 h_S_)))
    (reg (Host.reduceAdd (mulf x2 x2) (constant S_ .f32 0x00000000#32) reducesTo_S8192x256_S_d0_1 h_S_)))
    (reg (Host.reduceAdd (mulf x5 x5) (constant S_ .f32 0x00000000#32) reducesTo_S256x8192_S_d0_1 h_S_))

end Cert.KernelIdeal.Value

end
-- ==== Proof.KernelRun.lean ====
/-
  The kernel's program run from start to end, with its result named: the lines after the region applied to
  the written-back column of row sums and to the unchanged arguments.
-/
import proofs.«129548_j68676527063484_2_alg».proof.Proof.Tail
import proofs.«129548_j68676527063484_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The lines after the region, run from any buffer contents `W`, leave at the result `tail` of what `W` holds at the
    column of row sums and at the arguments `U`, `V`, `P`. -/
theorem after_tail (W : Valuation τ sig (Elt F)) :
    StableHlo.after hostOps1 W (Proc.devRef .tc main_v18)
      = tail (W (Proc.devRef .tc main_v1)) (W (Proc.devRef .tc main_arg1)) (W (Proc.devRef .tc main_arg2))
          (W (Proc.devRef .tc main_arg5)) := by
  after_results_simp
  rfl

/-- The result buffer after the program's last line: `tail` of the column of row sums as the region wrote it back
    and of the arguments `U`, `V`, `P` as launched (the region and the lines before it write none of the three). -/
theorem tail_eq (c : Dev nD) :
    Pipeline.afterTail₀ cfgs (dats m) 0 (V0 m) [hostOps1] c main_v18
      = tail ((dats m 0 c).arrAt 4 cfg0.N) (m ((c.tc : Thread nD τ).loc main_arg1)) (m ((c.tc : Thread nD τ).loc main_arg2))
          (m ((c.tc : Thread nD τ).loc main_arg5)) := by
  unfold Pipeline.afterTail₀
  show StableHlo.after hostOps1 _ (Proc.devRef .tc main_v18) = _
  rw [after_tail]
  have e4 := Pipeline.withArrays_arr spec0 launch0.win.arr_inj c (V0 m c) (fun w => (dats m 0 c).arrAt w cfg0.N) 4
  have e1 := (Pipeline.withArrays_arr spec0 launch0.win.arr_inj c (V0 m c) (fun w => (dats m 0 c).arrAt w cfg0.N) 1).trans
    (((dats m 0 c).arrAt_in 1 rfl _).trans ((A_eq m c 1).trans (V_main_arg1 m c)))
  have e5 := (Pipeline.withArrays_arr spec0 launch0.win.arr_inj c (V0 m c) (fun w => (dats m 0 c).arrAt w cfg0.N) 0).trans
    (((dats m 0 c).arrAt_in 0 rfl _).trans ((A_eq m c 0).trans (V_main_arg5 m c)))
  have e2 := (Pipeline.withArrays_of_ne spec0 c (V0 m c) (fun w => (dats m 0 c).arrAt w cfg0.N) main_arg2
    (by exact (by decide : ∀ w, Pipeline.arrRef spec0 w ≠ main_arg2))).trans (V_main_arg2 m c)
  exact congr (congr (congr (congrArg tail e4) e1) e2) e5

/-- Every weakly fair execution terminates with the result at `tail` of the written-back column and the
    arguments `U`, `V`, `P`, and every argument unchanged. -/
theorem run_named : θ_run defs (onTc (τ := τ) (main (F := F))) ⟨m, fun _ => 0, ρ⟩ (fun r => ∀ c : Dev nD,
      r.2.mem ((c.tc : Thread nD τ).loc main_v18)
        = tail ((dats m 0 c).arrAt 4 cfg0.N) (m ((c.tc : Thread nD τ).loc main_arg1)) (m ((c.tc : Thread nD τ).loc main_arg2))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun _ h c =>
    ⟨((h c).2 main_v18 (Pipeline.mem_restRefs_of main_v18 (by decide) (by decide))).trans (tail_eq m c),
      ((h c).1 3).trans (((dats m 0 c).arrAt_in 3 rfl _).trans ((A_eq m c 3).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 0).trans (((dats m 0 c).arrAt_in 0 rfl _).trans ((A_eq m c 0).trans (V_main_arg5 m c))),
      ((h c).2 main_arg6 (Pipeline.mem_restRefs_of main_arg6 (by decide) (by decide))).trans (W_main_arg6 m (dats m) c)⟩)
    (run_main m ρ)

end Cert.KernelIdeal.Value

end
-- ==== Proof.SumTiles.lean ====
/-
  Summing the column of row sums over the users is summing every pair's contribution.
-/
import proofs.«129548_j68676527063484_2_alg».proof.Proof.Spec

noncomputable section

open scoped BigOperators

namespace Cert.Loss

open Idealize.ShloMosaic Idealize.ShloMosaic.ValueIdx

/-- The items are the pairs (item tile, place in the tile): `i = 2048 * b + l` with `l < 2048` has exactly one
    solution, the quotient and the remainder of `i` by 2048. -/
def colEquiv : Fin 4 × Fin 2048 ≃ Fin 8192 where
  toFun p := col p.1 p.2
  invFun i := (⟨i.val / 2048, by have := i.isLt; omega⟩, ⟨i.val % 2048, by omega⟩)
  left_inv p := by
    obtain ⟨b, l⟩ := p
    have hb := b.isLt
    have hl := l.isLt
    refine Prod.ext (Fin.ext ?_) (Fin.ext ?_)
    · show (2048 * b.val + l.val) / 2048 = b.val
      omega
    · show (2048 * b.val + l.val) % 2048 = l.val
      omega
  right_inv i := by
    refine Fin.ext ?_
    show 2048 * (i.val / 2048) + i.val % 2048 = i.val
    omega

/-- A sum over the items is the sum over the item tiles of the sums over each tile's places. -/
theorem sum_col {M : Type*} [AddCommMonoid M] (f : Fin 8192 → M) :
    ∑ b : Fin 4, ∑ l : Fin 2048, f (col b l) = ∑ i : Fin 8192, f i := by
  rw [← Equiv.sum_comp colEquiv f, Fintype.sum_prod_type]
  rfl

/-- The sum of the row sums is the sum over all pairs `(u, i)`. -/
theorem sum_rowSums (R : Arr 8192 8192) (P : Arr 256 8192) (U V : Arr 8192 256) :
    ∑ y : (⟨2, ![8192, 1]⟩ : Shape).Idx, rowSums R P U V y
      = ∑ j : (⟨2, ![8192, 8192]⟩ : Shape).Idx, err R P U V (j 0) (j 1) := by
  rw [sum_idx2, sum_idx2]
  refine Finset.sum_congr rfl fun u _ => ?_
  rw [Fin.sum_univ_one]
  show ∑ b : Fin 4, ∑ l : Fin 2048, err R P U V u (col b l) = ∑ i : Fin 8192, err R P U V u i
  exact sum_col (fun i => err R P U V u i)

end Cert.Loss

end
-- ==== Proof.RefSum.lean ====
/-
  The reference's data term before halving: zero plus the sum of every pair's contribution.
-/
import proofs.«129548_j68676527063484_2_alg».proof.Proof.Spec
import proofs.«129548_j68676527063484_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx

/-- The operand indices the contraction and the two transposes read, at the pair `(u, i)` and the contraction
    place `k`, are the coordinate pairs `(u, k)`, `(k, u)`, `(k, i)` and `(i, k)`. -/
theorem lidx_ix2 (u i : Fin 8192) (k : Fin 256) : Read.lidx_main_v6 (ix2 u i) k = ix2 u k :=
  funext fun a => Fin.ext (by match a with | ⟨0, _⟩ => rfl | ⟨1, _⟩ => rfl)
theorem ridx_ix2 (u i : Fin 8192) (k : Fin 256) : Read.ridx_main_v6 (ix2 u i) k = ix2 k i :=
  funext fun a => Fin.ext (by match a with | ⟨0, _⟩ => rfl | ⟨1, _⟩ => rfl)
theorem idx3_ix2 (u : Fin 8192) (k : Fin 256) : Read.idx_main_v3 (ix2 u k) = ix2 k u :=
  funext fun a => Fin.ext (by match a with | ⟨0, _⟩ => rfl | ⟨1, _⟩ => rfl)
theorem idx5_ix2 (i : Fin 8192) (k : Fin 256) : Read.idx_main_v5 (ix2 k i) = ix2 i k :=
  funext fun a => Fin.ext (by match a with | ⟨0, _⟩ => rfl | ⟨1, _⟩ => rfl)

/-- The reference's product of the transposed, scaled user factors with the transposed item factors, at the pair
    `(u, i)`, is the predicted rating. -/
theorem v6_at (x1 x2 : (⟨S8192x256, .f32⟩ : BufTy).Contents (Elt Ideal))
    (x5 : (⟨S256x8192, .f32⟩ : BufTy).Contents (Elt Ideal)) (u i : Fin 8192) :
    Read.val_main_v6 (F := Ideal) x1 x2 x5 (ix2 u i) = Cert.Loss.pred x5 x1 x2 u i := by
  rw [Read.val_main_v6_apply]
  unfold Cert.Loss.pred
  refine Finset.sum_congr rfl fun k _ => ?_
  rw [Read.val_main_v4_apply, Read.val_main_v3_apply, Read.val_main_v5_apply,
    lidx_ix2, ridx_ix2, idx3_ix2, idx5_ix2]
  rfl

/-- The mask as a number: the comparison "differs from zero", converted to a float, is `1` where the rating is
    present and `0` where it is absent. -/
theorem v2_at (x0 : (⟨S8192x8192, .f32⟩ : BufTy).Contents (Elt Ideal)) (j : S8192x8192.Idx) :
    Read.val_main_v2 (F := Ideal) x0 j = if x0 j ≠ 0 then 1 else 0 := by
  rw [Read.val_main_v2_apply, Read.val_main_v1_apply, Read.val_main_v0_apply, Read.val_main_cst_apply]
  show (((Ideal.cmp .une (x0 j) (Ideal.ofBits .f32 0x00000000#32)).toNat : ℝ) : EReal) = _
  rw [Ideal.ofBits_zero_f32]
  by_cases h : x0 j ≠ 0
  · rw [if_pos h]
    simp [Ideal.cmp, h]
  · rw [if_neg h]
    simp [Ideal.cmp, h]

/-- One pair's term of the reference's sum is the pair's contribution. -/
theorem v9_at (x0 : (⟨S8192x8192, .f32⟩ : BufTy).Contents (Elt Ideal)) (x1 x2 : (⟨S8192x256, .f32⟩ : BufTy).Contents (Elt Ideal))
    (x5 : (⟨S256x8192, .f32⟩ : BufTy).Contents (Elt Ideal)) (u i : Fin 8192) :
    Read.val_main_v9 (F := Ideal) x0 x1 x2 x5 (ix2 u i) = Cert.Loss.err x0 x5 x1 x2 u i := by
  rw [Read.val_main_v9_apply, Read.val_main_v8_apply, Read.val_main_v7_apply, v6_at, v2_at]
  unfold Cert.Loss.err Cert.Loss.sqErr
  show (x0 (ix2 u i) - Cert.Loss.pred x5 x1 x2 u i) * (x0 (ix2 u i) - Cert.Loss.pred x5 x1 x2 u i)
      * (if x0 (ix2 u i) ≠ 0 then 1 else 0) = _
  by_cases h : x0 (ix2 u i) ≠ 0
  · rw [if_pos h, if_pos h, mul_one]
  · rw [if_neg h, if_neg h, mul_zero]

/-- The reference's summed masked squared error is the initial zero plus the sum over all pairs. -/
theorem v10_apply (x0 : (⟨S8192x8192, .f32⟩ : BufTy).Contents (Elt Ideal)) (x1 x2 : (⟨S8192x256, .f32⟩ : BufTy).Contents (Elt Ideal))
    (x5 : (⟨S256x8192, .f32⟩ : BufTy).Contents (Elt Ideal)) (i : S_.Idx) :
    Cert.ReferenceIdeal.Read.val_main_v10 (F := Ideal) x0 x1 x2 x5 i
      = Ideal.ofBits .f32 0x00000000#32 + ∑ j : S8192x8192.Idx, Cert.Loss.err x0 x5 x1 x2 (j 0) (j 1) := by
  rw [Read.val_main_v10_apply]
  refine congrArg₂ (· + ·) rfl (Finset.sum_congr rfl fun j _ => ?_)
  obtain ⟨u, v, rfl⟩ : ∃ (u v : Fin 8192), j = ix2 u v := ⟨j 0, j 1, eq_ix2 (n0 := 8192) (n1 := 8192) j⟩
  exact v9_at x0 x1 x2 x5 u v

end Cert.ReferenceIdeal.RefValue

end
-- ==== Proof.TailRef.lean ====
/-
  The kernel's closing lines applied to the column of row sums give the reference's result: both halve the sum
  of every pair's contribution and add the same three regularisers in the same order.
-/
import proofs.«129548_j68676527063484_2_alg».proof.Proof.Tail
import proofs.«129548_j68676527063484_2_alg».proof.Proof.SumTiles
import proofs.«129548_j68676527063484_2_alg».proof.Proof.RefSum
import proofs.«129548_j68676527063484_2_alg».proof.Proof.Gen.ReferenceIdeal.Read
import Idealize.ShloMosaic.PureOps.Ideal.Laws

noncomputable section

open scoped BigOperators

namespace Cert.KernelIdeal.Value

open Idealize.ShloMosaic Idealize.ShloMosaic.ValueIdx

/-- The sum of the column of row sums, from zero, is the reference's summed masked squared error: both are zero
    plus the sum of every pair's contribution, the row sums having gathered each user's pairs tile by tile. -/
theorem sum_rowSums_eq_ref (R : FVec Ideal Cert.KernelIdeal.S8192x8192 .f32) (x1 x2 : FVec Ideal Cert.KernelIdeal.S8192x256 .f32)
    (x5 : FVec Ideal Cert.KernelIdeal.S256x8192 .f32) :
    Host.reduceAdd (F := Ideal) (Cert.Loss.rowSums R x5 x1 x2) (constant (F := Ideal) Cert.KernelIdeal.S_ .f32 0x00000000#32)
        Cert.KernelIdeal.Facts₀.reducesTo_S8192x1_S_d0_1 Cert.KernelIdeal.Facts₀.h_S_
      = Cert.ReferenceIdeal.Read.val_main_v10 (F := Ideal) R x1 x2 x5 := by
  funext i
  rw [Cert.ReferenceIdeal.RefValue.v10_apply]
  simp only [Host.reduceAdd, Ideal.hostReduceAdd_def]
  refine (Ideal.hostReduceAdd_total Cert.KernelIdeal.Facts₀.reducesTo_S8192x1_S_d0_1 (fun b => b.elim0)
    (Cert.Loss.rowSums R x5 x1 x2) _ i).trans ?_
  exact congrArg₂ (· + ·) rfl (Cert.Loss.sum_rowSums R x5 x1 x2)

/-- On the extended reals the closing lines over the row sums are the reference's composed result. -/
theorem tail_eq_ref (R : FVec Ideal Cert.KernelIdeal.S8192x8192 .f32) (x1 x2 : FVec Ideal Cert.KernelIdeal.S8192x256 .f32)
    (x5 : FVec Ideal Cert.KernelIdeal.S256x8192 .f32) :
    tail (F := Ideal) (Cert.Loss.rowSums R x5 x1 x2) x1 x2 x5
      = Cert.ReferenceIdeal.Read.val_main_v43 (F := Ideal) R x1 x2 x5 := by
  unfold tail reg
  rw [sum_rowSums_eq_ref R x1 x2 x5]
  rfl

end Cert.KernelIdeal.Value

end
-- ==== Proof.lean ====
/-
  The kernel and the reference compute one loss.

  The reference forms, for every user `u` and item `i`, the squared difference between the rating `R u i` and
  its prediction `∑ k, (P k u · U u k) · V i k`, multiplies it by one where the rating is present and by zero
  where it is absent, sums over all pairs, halves, and adds three regularisers. The kernel walks an 8 × 4 grid
  of tiles (1024 users × 2048 items): at each tile it selects the same squared difference where the rating is
  present and zero elsewhere, sums along the items and adds the column into an accumulator that it resets at
  the first item tile of a user tile and writes out after the last; the program then sums the written-out
  column of row sums, halves, and adds the same three regularisers in the same order.

  On the extended reals a change of float format is the identity, a product with one is the factor and a
  product with zero is zero, and finite sums may be regrouped freely; so the sum of the row sums is the sum
  over all pairs, and the two results are equal. No finiteness of the inputs is used.

  The modules: `Spec` (the contributions, the row sums), `Pieces` and `Chain` (what the kernel body leaves,
  position by position), `Payload` (the body's arithmetic at one user), `Blocks` (a tile's blocks are parts of
  the arrays), `OutValue` and `Final` (the written-out column is the column of row sums), `Tail` and
  `KernelRun` (the program's closing lines and its run), `SumTiles`, `RefSum` and `TailRef` (the reference's
  sum and the regrouping).
-/
import proofs.«129548_j68676527063484_2_alg».proof.Defs
import proofs.«129548_j68676527063484_2_alg».proof.Proof.Gen.Kernel
import proofs.«129548_j68676527063484_2_alg».proof.Proof.Gen.Kernel.Frame
import proofs.«129548_j68676527063484_2_alg».proof.Proof.Gen.KernelIdeal
import proofs.«129548_j68676527063484_2_alg».proof.Proof.Gen.KernelIdeal.Frame
import proofs.«129548_j68676527063484_2_alg».proof.Proof.Gen.ReferenceIdeal
import proofs.«129548_j68676527063484_2_alg».proof.Proof.Gen.Pre_finite_inputs
import proofs.«129548_j68676527063484_2_alg».proof.Proof.Gen.ReferenceIdeal.Run
import proofs.«129548_j68676527063484_2_alg».proof.Proof.Gen.ReferenceIdeal.Read
import proofs.«129548_j68676527063484_2_alg».proof.Proof.OutValue
import proofs.«129548_j68676527063484_2_alg».proof.Proof.Final
import proofs.«129548_j68676527063484_2_alg».proof.Proof.KernelRun
import proofs.«129548_j68676527063484_2_alg».proof.Proof.TailRef
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of array operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's run on the extended reals ends with the reference's composed result of the kernel's own
    arguments: the written-out column is the column of row sums, and the closing lines over it are the
    reference's halved sum plus regularisers. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18)
        = Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono (fun r h c => ⟨(h c).1.trans (by
      rw [Cert.KernelIdeal.Value.arr_final m c (Cert.Loss.rowSums (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (fun t a ht q z => Cert.KernelIdeal.Value.out_value m c t a ht q z)]
      exact Cert.KernelIdeal.Value.tail_eq_ref _ _ _ _), (h c).2⟩)
    (Cert.KernelIdeal.Value.run_named m ρ)

/-- From memories that agree on the arguments both programs run to the end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v43_eq, (hagree c).1, (hagree c).2.1, (hagree c).2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
